-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S1024x512 .f32) (main_arg8 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x512 .f32) (main_arg8 : FVec F S512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S65536x512 .f32) (main_arg1 : FVec F S256x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x512 .f32) (main_arg8 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S1x1024 : Shape := ⟨2, ![1, 1024]⟩
abbrev S1x512 : Shape := ⟨2, ![1, 512]⟩
abbrev S65536 : Shape := ⟨1, ![65536]⟩
abbrev S1024x256 : Shape := ⟨2, ![1024, 256]⟩

abbrev nBuf : Space → Nat
  | .hbm => 19
  | .vmem => 14
  | .smem => 0
  | _ => 0

abbrev bufTy : (tb : Table) → Fin (tcTables nBuf tb) → BufTy
  | .hbm, ⟨0, _⟩ => ⟨S65536x512, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S256x1024, .bf16⟩
  | .hbm, ⟨10, _⟩ => ⟨S1024x1024, .bf16⟩
  | .hbm, ⟨11, _⟩ => ⟨S1024x1024, .bf16⟩
  | .hbm, ⟨12, _⟩ => ⟨S1024x512, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x512, .f32⟩
  | .hbm, ⟨17, _⟩ => ⟨S65536x512, .f32⟩
  | .hbm, ⟨18, _⟩ => ⟨S65536, .f32⟩
  | .local _ .vmem, ⟨0, _⟩ => ⟨S1024x512, .f32⟩
  | .local _ .vmem, ⟨1, _⟩ => ⟨S1024x512, .f32⟩
  | .local _ .vmem, ⟨2, _⟩ => ⟨S256x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024, .f32⟩
  | .local _ .vmem, ⟨13, _⟩ => ⟨S1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  slices_S1024x512_o0_0_S1024x256 : S1024x512.Slices ![0, 0] S1024x256
  slices_S1024x512_o0_256_S1024x256 : S1024x512.Slices ![0, 256] S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x256_0_0 : ∀ a, (![0, 0] : Fin 2 → Nat) a + S1024x256.size a ≤ S1024x512.size a
  h_S1024x256 : 0 < S1024x256.numel
  inb_S1024x512_S1024x256_0_256 : ∀ a, (![0, 256] : Fin 2 → Nat) a + S1024x256.size a ≤ S1024x512.size a
  reduces_S1024x256_S1024 : S1024x256.Reduces [1] S1024
  inb_S1024_S1024_0 : ∀ a, (![0] : Fin 1 → Nat) a + S1024.size a ≤ S1024.size a
  h_S1024 : 0 < S1024.numel
  dot_S1024x256_S256x1024_S1024x1024_1_0_0_1_n_n_wf : DotDims.WF S1024x256 S256x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S65536x512.size a
  hwx0_9 : ∀ i : grid0.Coords, EltTy.bits .f32 = 32 ∨ (Rect.block (s := S65536x512) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S65536.size a
  hwx0_10 : ∀ i : grid0.Coords, EltTy.bits .f32 = 32 ∨ (Rect.block (s := S65536) S1024.size (cc0_transform_10 i) (hinb0_10 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S1024x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x512 : Shape := ⟨2, ![65536, 512]⟩
abbrev S256x1024 : Shape := ⟨2, ![256, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S65536x256 : Shape := ⟨2, ![65536, 256]⟩
abbrev S65536x1024 : Shape := ⟨2, ![65536, 1024]⟩
abbrev S1x1024 : Shape := ⟨2, ![1, 1024]⟩
abbrev S_ : Shape := ⟨0, ![]⟩
abbrev S1x512 : Shape := ⟨2, ![1, 512]⟩
abbrev S65536 : Shape := ⟨1, ![65536]⟩

abbrev nBuf : Space → Nat
  | .hbm => 58
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S65536x256, .f32⟩
  | .hbm, ⟨10, _⟩ => ⟨S65536x256, .f32⟩
  | .hbm, ⟨11, _⟩ => ⟨S65536x1024, .f32⟩
  | .hbm, ⟨12, _⟩ => ⟨S1x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S65536x512, .f32⟩
  | .hbm, ⟨33, _⟩ => ⟨S1x512, .f32⟩
  | .hbm, ⟨34, _⟩ => ⟨S65536x512, .f32⟩
  | .hbm, ⟨35, _⟩ => ⟨S65536x512, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x256, .f32⟩
  | .hbm, ⟨45, _⟩ => ⟨S65536x256, .f32⟩
  | .hbm, ⟨46, _⟩ => ⟨S_, .f32⟩
  | .hbm, ⟨47, _⟩ => ⟨S65536x256, .f32⟩
  | .hbm, ⟨48, _⟩ => ⟨S65536x256, .f32⟩
  | .hbm, ⟨49, _⟩ => ⟨S_, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x512, .f32⟩
  | .hbm, ⟨56, _⟩ => ⟨S_, .f32⟩
  | .hbm, ⟨57, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call2_cst : Ref sig .tc := ⟨.hbm, 29, rfl⟩
abbrev main_call2_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  slices_S65536x512_S65536x256_0_0 : S65536x512.Slices ![0, 0] S65536x256
  slices_S65536x512_S65536x256_0_256 : S65536x512.Slices ![0, 256] S65536x256
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x256 : S_.BroadcastsInDim S65536x256 (![] : Fin 0 → Fin S65536x256.rank)
  concatenates_S65536x256_S65536x256_S65536x512_d1 : Shape.Concatenates [S65536x256, S65536x256] S65536x512 1
  reducesTo_S65536x256_S65536_d1 : S65536x256.ReducesTo [1] S65536
  h_S_ : 0 < S_.numel
  dot_S65536x256_S256x1024_S65536x1024_1_0_0_1_n_n_wf : DotDims.WF S65536x256 S256x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x512_S65536x512_1_0_0_1_n_n_wf : DotDims.WF S65536x1024 S1024x512 S65536x512 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Spec.lean ====
/-
  The coupling transform on one row of 512 features, as plain functions on the extended reals.

  The first 256 features of a row pass through unchanged. They also drive a small network: three layers, each an affine
  map followed by the ramp `max · 0`, then one more affine map, giving 512 parameters. For each of the last 256 features
  `q` the parameter at `q` is a shift and the parameter at `256 + q` an unconstrained scale `z`; the scale is
  `logistic (z + 2) + 0.001` (the two constants kept as their binary words), the feature becomes
  `feature * scale + shift`, and the row's log-determinant is the sum over `q` of `log scale`.

  An affine map reads a weight array of shape [a, b] and a bias: `out j = (∑ k, v k * W (k, j)) + bias j`.
  Nothing here mentions a program; both programs' results are shown equal to these functions elsewhere.
-/
import Idealize.ShloMosaic.PureOps.Ideal
import Idealize.ShloMosaic.Lib.ValueIdx

noncomputable section

namespace Cert.Coupling

open Idealize.ShloMosaic Idealize.ShloMosaic.ValueIdx
open scoped BigOperators

/-- An affine map of a row `v` of width `a` to width `b`. -/
def affine {a b : Nat} (W : (⟨2, ![a, b]⟩ : Shape).Idx → EReal) (β : Fin b → EReal) (v : Fin a → EReal)
    (j : Fin b) : EReal :=
  (∑ k : Fin a, v k * W (ix2 k j)) + β j

/-- A hidden layer: the ramp of an affine map (the zero is the f32 zero word). -/
def layer {a b : Nat} (W : (⟨2, ![a, b]⟩ : Shape).Idx → EReal) (β : Fin b → EReal) (v : Fin a → EReal)
    (j : Fin b) : EReal :=
  max (affine W β v j) (Ideal.ofBits .f32 0x00000000#32)

/-- Feature `q` of the first half, as a feature of the whole row. -/
def lo (q : Fin 256) : Fin 512 := ⟨q.val, by have := q.isLt; omega⟩

/-- Feature `q` of the second half, as a feature of the whole row. -/
def hi (q : Fin 256) : Fin 512 := ⟨256 + q.val, by have := q.isLt; omega⟩

/-- The 512 parameters the network computes from a row's first 256 features `u`. -/
def params (W1 : (⟨2, ![256, 1024]⟩ : Shape).Idx → EReal) (β1 : Fin 1024 → EReal)
    (W2 : (⟨2, ![1024, 1024]⟩ : Shape).Idx → EReal) (β2 : Fin 1024 → EReal)
    (W3 : (⟨2, ![1024, 1024]⟩ : Shape).Idx → EReal) (β3 : Fin 1024 → EReal)
    (W4 : (⟨2, ![1024, 512]⟩ : Shape).Idx → EReal) (β4 : Fin 512 → EReal)
    (u : Fin 256 → EReal) : Fin 512 → EReal :=
  affine W4 β4 (layer W3 β3 (layer W2 β2 (layer W1 β1 u)))

/-- The scale from an unconstrained parameter: `logistic (z + 2) + 0.001`, the constants as their f32 words. -/
def scaleOf (z : EReal) : EReal :=
  Ideal.logistic (z + Ideal.ofBits .f32 0x40000000#32) + Ideal.ofBits .f32 0x3A83126F#32

/-- Feature `q` of the second half after the transform, from the row `x` and the parameters `P`. -/
def moved (P : Fin 512 → EReal) (x : Fin 512 → EReal) (q : Fin 256) : EReal :=
  x (hi q) * scaleOf (P (hi q)) + P (lo q)

/-- The row's log-determinant: the sum of the logarithms of the 256 scales. -/
def logdet (P : Fin 512 → EReal) : EReal :=
  ∑ q : Fin 256, Ideal.log (scaleOf (P (hi q)))

/-- The transformed row: the first half as it was, the second half moved. -/
def outRow (P : Fin 512 → EReal) (x : Fin 512 → EReal) (j : Fin 512) : EReal :=
  if h : j.val < 256 then x j else moved P x ⟨j.val - 256, by have := j.isLt; omega⟩

theorem outRow_lo (P x : Fin 512 → EReal) (q : Fin 256) : outRow P x (lo q) = x (lo q) := by
  unfold outRow
  rw [dif_pos (show (lo q).val < 256 from q.isLt)]

theorem outRow_hi (P x : Fin 512 → EReal) (q : Fin 256) : outRow P x (hi q) = moved P x q := by
  unfold outRow
  rw [dif_neg (show ¬ (hi q).val < 256 from by show ¬ (256 + q.val < 256); omega)]
  congr 1
  exact Fin.ext (by show 256 + q.val - 256 = q.val; omega)

/-- Every feature of a row is in the first half or in the second. -/
theorem lo_or_hi (j : Fin 512) : (∃ q : Fin 256, j = lo q) ∨ (∃ q : Fin 256, j = hi q) := by
  by_cases h : j.val < 256
  · exact Or.inl ⟨⟨j.val, h⟩, Fin.ext rfl⟩
  · exact Or.inr ⟨⟨j.val - 256, by have := j.isLt; omega⟩, Fin.ext (by show j.val = 256 + (j.val - 256); omega)⟩

/-! ## Whole arrays -/

/-- Row `r` of an array of 65536 rows of 512 features. -/
def rowOf (X : (⟨2, ![65536, 512]⟩ : Shape).Idx → EReal) (r : Fin 65536) : Fin 512 → EReal := fun k => X (ix2 r k)

/-- A rank-1 array as a function of its one coordinate. -/
def vecOf {b : Nat} (B : (⟨1, ![b]⟩ : Shape).Idx → EReal) : Fin b → EReal := fun j => B (ix1 j)

/-- The parameters of row `r`. -/
def paramsAt (X : (⟨2, ![65536, 512]⟩ : Shape).Idx → EReal)
    (W1 : (⟨2, ![256, 1024]⟩ : Shape).Idx → EReal) (B1 : (⟨1, ![1024]⟩ : Shape).Idx → EReal)
    (W2 : (⟨2, ![1024, 1024]⟩ : Shape).Idx → EReal) (B2 : (⟨1, ![1024]⟩ : Shape).Idx → EReal)
    (W3 : (⟨2, ![1024, 1024]⟩ : Shape).Idx → EReal) (B3 : (⟨1, ![1024]⟩ : Shape).Idx → EReal)
    (W4 : (⟨2, ![1024, 512]⟩ : Shape).Idx → EReal) (B4 : (⟨1, ![512]⟩ : Shape).Idx → EReal)
    (r : Fin 65536) : Fin 512 → EReal :=
  params W1 (vecOf B1) W2 (vecOf B2) W3 (vecOf B3) W4 (vecOf B4) (fun k => rowOf X r (lo k))

/-- The transformed array. -/
def outArr (X : (⟨2, ![65536, 512]⟩ : Shape).Idx → EReal)
    (W1 : (⟨2, ![256, 1024]⟩ : Shape).Idx → EReal) (B1 : (⟨1, ![1024]⟩ : Shape).Idx → EReal)
    (W2 : (⟨2, ![1024, 1024]⟩ : Shape).Idx → EReal) (B2 : (⟨1, ![1024]⟩ : Shape).Idx → EReal)
    (W3 : (⟨2, ![1024, 1024]⟩ : Shape).Idx → EReal) (B3 : (⟨1, ![1024]⟩ : Shape).Idx → EReal)
    (W4 : (⟨2, ![1024, 512]⟩ : Shape).Idx → EReal) (B4 : (⟨1, ![512]⟩ : Shape).Idx → EReal) :
    (⟨2, ![65536, 512]⟩ : Shape).Idx → EReal :=
  fun i => outRow (paramsAt X W1 B1 W2 B2 W3 B3 W4 B4 (i 0)) (rowOf X (i 0)) (i 1)

/-- The log-determinants, one per row. -/
def ladArr (X : (⟨2, ![65536, 512]⟩ : Shape).Idx → EReal)
    (W1 : (⟨2, ![256, 1024]⟩ : Shape).Idx → EReal) (B1 : (⟨1, ![1024]⟩ : Shape).Idx → EReal)
    (W2 : (⟨2, ![1024, 1024]⟩ : Shape).Idx → EReal) (B2 : (⟨1, ![1024]⟩ : Shape).Idx → EReal)
    (W3 : (⟨2, ![1024, 1024]⟩ : Shape).Idx → EReal) (B3 : (⟨1, ![1024]⟩ : Shape).Idx → EReal)
    (W4 : (⟨2, ![1024, 512]⟩ : Shape).Idx → EReal) (B4 : (⟨1, ![512]⟩ : Shape).Idx → EReal) :
    (⟨1, ![65536]⟩ : Shape).Idx → EReal :=
  fun i => logdet (paramsAt X W1 B1 W2 B2 W3 B3 W4 B4 (i 0))

end Cert.Coupling

end
-- ==== Proof.KernelLayer.lean ====
/-
  One layer of the network as a kernel body spells it, read at an index.

  A kernel computes an affine map of a block of rows as a matrix product into a zero accumulator plus the bias, held as a
  1 × b row and broadcast down the block's rows. At the exact values the product at (p, j) is the sum over k of
  lhs (p, k) * w (k, j) and the broadcast row at (p, j) is the row at j, so the whole is `Coupling.affine` of row p of
  the left operand; with the ramp `max · 0` after it, `Coupling.layer`. Stated over variable extents and formats.
-/
import Idealize.ShloMosaic.Lib.Pipeline.Value
import Idealize.ShloMosaic.Lib.ValueIdx
import Idealize.ShloMosaic.PureOps.Ideal.Laws
import proofs.«151439_j28260884807682_2_alg».proof.Proof.LibPlainDot
import proofs.«151439_j28260884807682_2_alg».proof.Proof.LibRowBroadcasts
import proofs.«151439_j28260884807682_2_alg».proof.Proof.Spec

noncomputable section

namespace Cert.Coupling

open Idealize.ShloMosaic Idealize.ShloMosaic.ValueIdx
open scoped BigOperators

variable {a c b : Nat}

/-- A 1 × b array as a function of its column. -/
def rowVec (v : (⟨2, ![1, b]⟩ : Shape).Idx → EReal) : Fin b → EReal := fun j => v (ix2 (0 : Fin 1) j)

/-- The product into the zero accumulator plus the broadcast bias row, at (p, j): the affine map of row p. -/
theorem kernAffine_apply (wf : DotDims.WF ⟨2, ![a, c]⟩ ⟨2, ![c, b]⟩ ⟨2, ![a, b]⟩ [1] [0] [0] [1] [] [])
    (hb : (⟨2, ![1, b]⟩ : Shape).Broadcasts ⟨2, ![a, b]⟩) {φ₁ φ₂ : FTy}
    (lhs : FVec Ideal ⟨2, ![a, c]⟩ φ₁) (w : FVec Ideal ⟨2, ![c, b]⟩ φ₂) (β : FVec Ideal ⟨2, ![1, b]⟩ .f32)
    (p : Fin a) (j : Fin b) :
    addf (matmul (Cert.Lib.PlainDot.dims wf) none lhs w (constant ⟨2, ![a, b]⟩ .f32 0x00000000#32))
        (broadcastTo ⟨2, ![a, b]⟩ β hb) (ix2 p j)
      = affine w (rowVec β) (fun k => lhs (ix2 p k)) j := by
  show matmul (Cert.Lib.PlainDot.dims wf) none lhs w (constant ⟨2, ![a, b]⟩ .f32 0x00000000#32) (ix2 p j)
      + broadcastTo ⟨2, ![a, b]⟩ β hb (ix2 p j) = _
  rw [Cert.Lib.PlainDot.matmul_zero_apply, Cert.Lib.Rows.bcastRow_apply]
  rfl

/-- The same followed by the ramp against the splat of the f32 zero: a hidden layer on row p. -/
theorem kernLayer_apply (wf : DotDims.WF ⟨2, ![a, c]⟩ ⟨2, ![c, b]⟩ ⟨2, ![a, b]⟩ [1] [0] [0] [1] [] [])
    (hb : (⟨2, ![1, b]⟩ : Shape).Broadcasts ⟨2, ![a, b]⟩) {φ₁ φ₂ : FTy}
    (lhs : FVec Ideal ⟨2, ![a, c]⟩ φ₁) (w : FVec Ideal ⟨2, ![c, b]⟩ φ₂) (β : FVec Ideal ⟨2, ![1, b]⟩ .f32)
    (p : Fin a) (j : Fin b) :
    maximumf (addf (matmul (Cert.Lib.PlainDot.dims wf) none lhs w (constant ⟨2, ![a, b]⟩ .f32 0x00000000#32))
        (broadcastTo ⟨2, ![a, b]⟩ β hb)) (broadcast ⟨2, ![a, b]⟩ (Scalar.ofBits (F := Ideal) .f32 0x00000000#32)) (ix2 p j)
      = layer w (rowVec β) (fun k => lhs (ix2 p k)) j := by
  show max (addf (matmul (Cert.Lib.PlainDot.dims wf) none lhs w (constant ⟨2, ![a, b]⟩ .f32 0x00000000#32))
        (broadcastTo ⟨2, ![a, b]⟩ β hb) (ix2 p j)) (Ideal.ofBits .f32 0x00000000#32) = _
  rw [kernAffine_apply]
  rfl

end Cert.Coupling

end
-- ==== Proof.KernelPayload.lean ====
/-
  What the kernel body computes, read at an index of a block of 1024 rows.

  The body loads a block `x` of 1024 rows of 512 features, four weight arrays and four bias rows. Every value it forms
  at row p depends on row p of `x` only:
  * the third hidden layer at (p, j) is three `Coupling.layer`s of the first 256 features of row p (the narrowing to
    bf16 before each product is the identity at the exact values; a shape cast to the same shape is the identity);
  * the parameters at (p, j) are `Coupling.affine` of that hidden row;
  * the scale at (p, q) is `Coupling.scaleOf` of the parameter at (p, 256 + q);
  * the transformed feature at (p, q) is `x (p, 256 + q) * scale + parameter (p, q)`;
  * the log-determinant at p is the sum over q of the logarithm of the scale (the reduction's zero start is the
    neutral element of the sum it denotes).
-/
import proofs.«151439_j28260884807682_2_alg».proof.Proof.Gen.KernelIdeal.Skeleton
import proofs.«151439_j28260884807682_2_alg».proof.Proof.KernelLayer

noncomputable section

namespace Cert.KernelIdeal.Hand

open Cert.KernelIdeal Cert.KernelIdeal.Gen Cert.Coupling
open Idealize.ShloMosaic Idealize.ShloMosaic.ValueIdx
open scoped BigOperators

/-- The first 256 features of row p of a block. -/
def headOf (x : Vec Ideal S1024x512 .f32) (p : Fin 1024) : Fin 256 → EReal := fun k => x (ix2 p (lo k))

/-- The third hidden layer of row p, from the block and the first three weight arrays and bias rows. -/
def hidden3 (x : Vec Ideal S1024x512 .f32) (w1 : Vec Ideal S256x1024 .bf16) (b1 : Vec Ideal S1x1024 .f32)
    (w2 : Vec Ideal S1024x1024 .bf16) (b2 : Vec Ideal S1x1024 .f32) (w3 : Vec Ideal S1024x1024 .bf16)
    (b3 : Vec Ideal S1x1024 .f32) (p : Fin 1024) : Fin 1024 → EReal :=
  layer w3 (rowVec b3) (layer w2 (rowVec b2) (layer w1 (rowVec b1) (headOf x p)))

/-- The slice of the first 256 columns, at (p, k). -/
theorem head_apply (x : Vec Ideal S1024x512 .f32) (p : Fin 1024) (k : Fin 256) :
    k0_pay5 (F := Ideal) x (ix2 p k) = x (ix2 p (lo k)) := by
  unfold k0_pay5
  exact extractStridedSlice_apply ![0, 0] x slices_S1024x512_o0_0_S1024x256 (ix2 p k) (ix2 p (lo k)) (fun a => by
    match a with
    | ⟨0, _⟩ => show p.val = 0 + p.val; omega
    | ⟨1, _⟩ => show k.val = 0 + k.val; omega)

/-- The slice of the last 256 columns, at (p, q). -/
theorem tail_apply (x : Vec Ideal S1024x512 .f32) (p : Fin 1024) (q : Fin 256) :
    k0_pay6 (F := Ideal) x (ix2 p q) = x (ix2 p (hi q)) := by
  unfold k0_pay6
  exact extractStridedSlice_apply ![0, 256] x slices_S1024x512_o0_256_S1024x256 (ix2 p q) (ix2 p (hi q)) (fun a => by
    match a with
    | ⟨0, _⟩ => show p.val = 0 + p.val; omega
    | ⟨1, _⟩ => show 256 + q.val = 256 + q.val; rfl)

/-- The third hidden layer at (p, j). -/
theorem hidden_apply (x : Vec Ideal S1024x512 .f32) (w1 : Vec Ideal S256x1024 .bf16) (b1 : Vec Ideal S1x1024 .f32)
    (w2 : Vec Ideal S1024x1024 .bf16) (b2 : Vec Ideal S1x1024 .f32) (w3 : Vec Ideal S1024x1024 .bf16)
    (b3 : Vec Ideal S1x1024 .f32) (p : Fin 1024) (j : Fin 1024) :
    k0_pay7 (F := Ideal) x w1 b1 w2 b2 w3 b3 (ix2 p j) = hidden3 x w1 b1 w2 b2 w3 b3 p j := by
  unfold k0_pay7 hidden3
  simp only [shapeCast_self]
  refine (kernLayer_apply dot_S1024x1024_S1024x1024_S1024x1024_1_0_0_1_n_n_wf broadcasts_S1x1024_S1024x1024 _ w3 b3 p j).trans ?_
  refine congrArg (fun v => layer w3 (rowVec b3) v j) (funext fun k2 => ?_)
  refine (kernLayer_apply dot_S1024x1024_S1024x1024_S1024x1024_1_0_0_1_n_n_wf broadcasts_S1x1024_S1024x1024 _ w2 b2 p k2).trans ?_
  refine congrArg (fun v => layer w2 (rowVec b2) v k2) (funext fun k1 => ?_)
  refine (kernLayer_apply dot_S1024x256_S256x1024_S1024x1024_1_0_0_1_n_n_wf broadcasts_S1x1024_S1024x1024 _ w1 b1 p k1).trans ?_
  refine congrArg (fun v => layer w1 (rowVec b1) v k1) (funext fun k0 => ?_)
  exact head_apply x p k0

/-- The parameters at (p, j): the last affine map of the hidden row `h` (p, ·). -/
theorem params_apply (h : FVec Ideal S1024x1024 .bf16) (w4 : FVec Ideal S1024x512 .bf16) (b4 : Vec Ideal S1x512 .f32)
    (p : Fin 1024) (j : Fin 512) :
    k0_pay1 (F := Ideal) h w4 (constant S1024x512 .f32 0x00000000#32) b4 (ix2 p j)
      = affine w4 (rowVec b4) (fun k => h (ix2 p k)) j := by
  unfold k0_pay1
  simp only [shapeCast_self]
  exact kernAffine_apply dot_S1024x1024_S1024x512_S1024x512_1_0_0_1_n_n_wf broadcasts_S1x512_S1024x512 h w4 b4 p j

/-- The scale at (p, q), from the parameter at (p, 256 + q). -/
theorem scale_apply (h : FVec Ideal S1024x1024 .bf16) (w4 : FVec Ideal S1024x512 .bf16) (b4 : Vec Ideal S1x512 .f32)
    (p : Fin 1024) (q : Fin 256) :
    k0_pay2 (F := Ideal) h w4 (constant S1024x512 .f32 0x00000000#32) b4 (ix2 p q)
      = scaleOf (k0_pay1 (F := Ideal) h w4 (constant S1024x512 .f32 0x00000000#32) b4 (ix2 p (hi q))) := by
  unfold k0_pay2 scaleOf
  show Ideal.logistic (extractStridedSlice S1024x256 ![0, 256] (k0_pay1 (F := Ideal) h w4 (constant S1024x512 .f32 0x00000000#32) b4)
      slices_S1024x512_o0_256_S1024x256 (ix2 p q) + Ideal.ofBits .f32 0x40000000#32) + Ideal.ofBits .f32 0x3A83126F#32 = _
  rw [extractStridedSlice_apply ![0, 256] _ slices_S1024x512_o0_256_S1024x256 (ix2 p q) (ix2 p (hi q)) (fun a => by
    match a with
    | ⟨0, _⟩ => show p.val = 0 + p.val; omega
    | ⟨1, _⟩ => show 256 + q.val = 256 + q.val; rfl)]

/-- The transformed feature at (p, q). -/
theorem moved_apply (t : FVec Ideal S1024x256 .f32) (h : FVec Ideal S1024x1024 .bf16) (w4 : FVec Ideal S1024x512 .bf16)
    (b4 : Vec Ideal S1x512 .f32) (p : Fin 1024) (q : Fin 256) :
    k0_pay3 (F := Ideal) t h w4 (constant S1024x512 .f32 0x00000000#32) b4 (ix2 p q)
      = t (ix2 p q) * scaleOf (k0_pay1 (F := Ideal) h w4 (constant S1024x512 .f32 0x00000000#32) b4 (ix2 p (hi q)))
        + k0_pay1 (F := Ideal) h w4 (constant S1024x512 .f32 0x00000000#32) b4 (ix2 p (lo q)) := by
  unfold k0_pay3
  show t (ix2 p q) * k0_pay2 (F := Ideal) h w4 (constant S1024x512 .f32 0x00000000#32) b4 (ix2 p q)
      + extractStridedSlice S1024x256 ![0, 0] (k0_pay1 (F := Ideal) h w4 (constant S1024x512 .f32 0x00000000#32) b4)
          slices_S1024x512_o0_0_S1024x256 (ix2 p q) = _
  rw [scale_apply, extractStridedSlice_apply ![0, 0] _ slices_S1024x512_o0_0_S1024x256 (ix2 p q) (ix2 p (lo q)) (fun a => by
    match a with
    | ⟨0, _⟩ => show p.val = 0 + p.val; omega
    | ⟨1, _⟩ => show q.val = 0 + q.val; omega)]

/-- The source index over row p whose column is q. -/
theorem lift_eq (p : Fin 1024) (q : Fin 256) : reduces_S1024x256_S1024.lift (ix1 p) q = ix2 p q :=
  funext fun a => Fin.ext (by match a with | ⟨0, _⟩ => rfl | ⟨1, _⟩ => rfl)

/-- A sum along the columns of a 1024 × 256 array from the neutral start, at row p. -/
theorem laneSum (src : FVec Ideal S1024x256 .f32) (hφ : FKind.Formats .f32)
    (hacc : (0x00000000#32 : BitVec 32) = FKind.add.neutral .f32 hφ) (p : Fin 1024) :
    multiReduction .add [1] S1024 src 0x00000000#32 reduces_S1024x256_S1024 hφ hacc (ix1 p)
      = ∑ q : Fin 256, src (ix2 p q) := by
  refine (Ideal.multiReduction_add_single src 0x00000000#32 reduces_S1024x256_S1024 hφ hacc (ix1 p)).trans ?_
  refine Finset.sum_congr rfl fun q _ => ?_
  exact congrArg src (lift_eq p q)

/-- The lane sum of the logarithms of the scales, at row p. -/
theorem logdet_apply (h : FVec Ideal S1024x1024 .bf16) (w4 : FVec Ideal S1024x512 .bf16) (b4 : Vec Ideal S1x512 .f32)
    (p : Fin 1024) :
    k0_pay4 (F := Ideal) h w4 (constant S1024x512 .f32 0x00000000#32) b4 (ix1 p)
      = ∑ q : Fin 256, Ideal.log (scaleOf (k0_pay1 (F := Ideal) h w4 (constant S1024x512 .f32 0x00000000#32) b4 (ix2 p (hi q)))) := by
  show multiReduction .add [1] S1024 (log (k0_pay2 (F := Ideal) h w4 (constant S1024x512 .f32 0x00000000#32) b4))
      0x00000000#32 reduces_S1024x256_S1024 (.inl rfl) rfl (ix1 p) = _
  refine (laneSum _ _ _ p).trans ?_
  refine Finset.sum_congr rfl fun q _ => ?_
  show Ideal.log (k0_pay2 (F := Ideal) h w4 (constant S1024x512 .f32 0x00000000#32) b4 (ix2 p q)) = _
  rw [scale_apply]

end Cert.KernelIdeal.Hand

end
-- ==== Proof.KernelBlock.lean ====
/-
  What the body leaves in its two output buffers, as functions of the input blocks.

  The body stores the block's first 256 columns unchanged and its last 256 columns moved, as two half-width pieces that tile
  the 1024 × 512 output buffer, and stores the 1024 log-determinants as one piece. Read at (p, j) the first buffer is
  the specification's transformed row p at feature j, and the second at p its log-determinant, the row's parameters
  computed from the block's row p and the whole weight and bias blocks.
-/
import proofs.«151439_j28260884807682_2_alg».proof.Proof.Gen.KernelIdeal.Frame
import proofs.«151439_j28260884807682_2_alg».proof.Proof.KernelPayload

noncomputable section

namespace Cert.KernelIdeal.Hand

open Cert.KernelIdeal Cert.KernelIdeal.Gen Cert.Coupling
open Idealize.ShloMosaic Idealize.ShloMosaic.ValueIdx
open scoped BigOperators

theorem hz2 : (![0, 0] : Fin 2 → Nat) = fun _ => 0 := funext fun a => by fin_cases a <;> rfl
theorem hz1 : (![0] : Fin 1 → Nat) = fun _ => 0 := funext fun a => by fin_cases a; rfl

/-- The parameters of row p of a block. -/
def blockParams (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) (p : Fin 1024) : Fin 512 → EReal :=
  params x1 (rowVec x2) x3 (rowVec x4) x5 (rowVec x6) x7 (rowVec x8) (headOf x0 p)

/-- The body's parameters at (p, j). -/
theorem blockParams_apply (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) (p : Fin 1024) (j : Fin 512) :
    k0_pay1 (F := Ideal) (k0_pay7 x0 x1 x2 x3 x4 x5 x6) (k0_pay8 x7) (constant S1024x512 .f32 0x00000000#32) x8 (ix2 p j)
      = blockParams x0 x1 x2 x3 x4 x5 x6 x7 x8 p j := by
  rw [params_apply]
  unfold blockParams params k0_pay8
  rw [shapeCast_self]
  refine congrArg (fun v => affine x7 (rowVec x8) v j) (funext fun k => ?_)
  exact hidden_apply x0 x1 x2 x3 x4 x5 x6 p k

/-- The output block as one function of its index. -/
def blockOut (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) : S1024x512.Idx → EReal :=
  fun y => outRow (blockParams x0 x1 x2 x3 x4 x5 x6 x7 x8 (y 0)) (fun k => x0 (ix2 (y 0) k)) (y 1)

/-- An element of the left piece sits in the buffer at the same row and column. -/
theorem emb_left (p : Fin 1024) (q : Fin 256) : r0_5.emb (ix2 p q) = ix2 p (lo q) :=
  funext fun a => Fin.ext (by
    match a with
    | ⟨0, _⟩ => show 0 + 1 * p.val = p.val; omega
    | ⟨1, _⟩ => show 0 + 1 * q.val = q.val; omega)

/-- An element of the right piece sits in the buffer 256 columns on. -/
theorem emb_right (p : Fin 1024) (q : Fin 256) : r0_6.emb (ix2 p q) = ix2 p (hi q) :=
  funext fun a => Fin.ext (by
    match a with
    | ⟨0, _⟩ => show 0 + 1 * p.val = p.val; omega
    | ⟨1, _⟩ => show 256 + 1 * q.val = 256 + q.val; omega)

/-- The first output buffer after the body is `blockOut` of the input blocks. -/
theorem out9_eq (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) : out0_9 (F := Ideal) x0 x1 x2 x3 x4 x5 x6 x7 x8 = blockOut x0 x1 x2 x3 x4 x5 x6 x7 x8 := by
  funext y
  unfold out0_9
  simp only [View.ld_unit_zero (S := S1024x512) hz2, View.ld_unit_zero (S := S256x1024) hz2,
    View.ld_unit_zero (S := S1x1024) hz2, View.ld_unit_zero (S := S1024x1024) hz2, View.ld_unit_zero (S := S1x512) hz2]
  refine View.canon_apply_of_pieces (Val := Elt Ideal) (S := S1024x512) (e := .f32) (blockOut x0 x1 x2 x3 x4 x5 x6 x7 x8) _ ?_ y (cover0_9 _ _ y)
  intro pc hpc x
  rcases List.mem_cons.mp hpc with rfl | hpc
  · obtain ⟨p, q, rfl⟩ : ∃ (p : Fin 1024) (q : Fin 256), x = ix2 p q := ⟨x 0, x 1, eq_ix2 x⟩
    show k0_pay3 (F := Ideal) (k0_pay6 x0) (k0_pay7 x0 x1 x2 x3 x4 x5 x6) (k0_pay8 x7) (constant S1024x512 .f32 0x00000000#32) x8 (ix2 p q)
      = blockOut x0 x1 x2 x3 x4 x5 x6 x7 x8 (r0_6.emb (ix2 p q))
    rw [emb_right, moved_apply, tail_apply, blockParams_apply, blockParams_apply]
    show _ = outRow (blockParams x0 x1 x2 x3 x4 x5 x6 x7 x8 p) (fun k => x0 (ix2 p k)) (hi q)
    rw [outRow_hi]
    rfl
  · obtain rfl := List.mem_singleton.mp hpc
    obtain ⟨p, q, rfl⟩ : ∃ (p : Fin 1024) (q : Fin 256), x = ix2 p q := ⟨x 0, x 1, eq_ix2 x⟩
    show k0_pay5 (F := Ideal) x0 (ix2 p q) = blockOut x0 x1 x2 x3 x4 x5 x6 x7 x8 (r0_5.emb (ix2 p q))
    rw [emb_left, head_apply]
    show _ = outRow (blockParams x0 x1 x2 x3 x4 x5 x6 x7 x8 p) (fun k => x0 (ix2 p k)) (lo q)
    rw [outRow_lo]

/-- The second output buffer after the body: the log-determinant of each row of the block. -/
theorem out10_apply (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) (p : Fin 1024) :
    out0_10 (F := Ideal) x0 x1 x2 x3 x4 x5 x6 x7 x8 (ix1 p) = logdet (blockParams x0 x1 x2 x3 x4 x5 x6 x7 x8 p) := by
  unfold out0_10
  rw [View.canon_unit_zero hz1]
  simp only [View.ld_unit_zero (S := S1024x512) hz2, View.ld_unit_zero (S := S256x1024) hz2,
    View.ld_unit_zero (S := S1x1024) hz2, View.ld_unit_zero (S := S1024x1024) hz2, View.ld_unit_zero (S := S1x512) hz2]
  rw [logdet_apply]
  unfold logdet
  refine Finset.sum_congr rfl fun q _ => ?_
  rw [blockParams_apply]

end Cert.KernelIdeal.Hand

end
-- ==== Proof.KernelInputs.lean ====
/-
  What each input window's block holds at a grid point, in terms of the arguments as launched.

  The grid has 64 points. At point t the first window's block is rows 1024 t … 1024 t + 1023 of the argument `x`; every
  other window has the same block at every point, its whole array. The weight arrays the region finds are the arguments
  narrowed to bf16 by the host program before the call — the identity at the exact values —, and the bias arrays are
  the bias vectors reshaped to 1 × b rows, which read at (0, j) the vector at j.
-/
import proofs.«151439_j28260884807682_2_alg».proof.Proof.Gen.KernelIdeal.Frame
import Idealize.ShloMosaic.Lib.Pipeline.Value
import Idealize.ShloMosaic.Lib.StableHlo.Run
import proofs.«151439_j28260884807682_2_alg».proof.Proof.KernelLayer

noncomputable section

namespace Cert.KernelIdeal.Hand

open Cert.KernelIdeal Cert.KernelIdeal.Gen Cert.Coupling
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## The block indices over the grid, decided once -/

theorem idx0 : ∀ t : Fin cfg0.N, win0_0.index t (0 : Fin 2) = t.val ∧ win0_0.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 1) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## The arrays the region finds -/

/-- The weight array window 1 stages is argument `main_arg1` (narrowed to bf16: the identity at the exact values). -/
theorem V_w1 (c : Dev nD) : (V m c main_v0 : S256x1024.Idx → EReal) = ((m ((c : Thread nD τ).loc main_arg1)) : S256x1024.Idx → EReal) := by
  have e : @Eq (S256x1024.Idx → EReal) (V m c main_v0) (truncf (F := Ideal) (s := S256x1024) .bf16 (m ((c : Thread nD τ).loc main_arg1)) bitsLt_bf16_f32) := by
    dsimp only [V, hostOps0]; after_results
  rw [e]; rfl

/-- The weight array window 3 stages is argument `main_arg3` (narrowed to bf16: the identity at the exact values). -/
theorem V_w3 (c : Dev nD) : (V m c main_v1 : S1024x1024.Idx → EReal) = ((m ((c : Thread nD τ).loc main_arg3)) : S1024x1024.Idx → EReal) := by
  have e : @Eq (S1024x1024.Idx → EReal) (V m c main_v1) (truncf (F := Ideal) (s := S1024x1024) .bf16 (m ((c : Thread nD τ).loc main_arg3)) bitsLt_bf16_f32) := by
    dsimp only [V, hostOps0]; after_results
  rw [e]; rfl

/-- The weight array window 5 stages is argument `main_arg5` (narrowed to bf16: the identity at the exact values). -/
theorem V_w5 (c : Dev nD) : (V m c main_v2 : S1024x1024.Idx → EReal) = ((m ((c : Thread nD τ).loc main_arg5)) : S1024x1024.Idx → EReal) := by
  have e : @Eq (S1024x1024.Idx → EReal) (V m c main_v2) (truncf (F := Ideal) (s := S1024x1024) .bf16 (m ((c : Thread nD τ).loc main_arg5)) bitsLt_bf16_f32) := by
    dsimp only [V, hostOps0]; after_results
  rw [e]; rfl

/-- The weight array window 7 stages is argument `main_arg7` (narrowed to bf16: the identity at the exact values). -/
theorem V_w7 (c : Dev nD) : (V m c main_v3 : S1024x512.Idx → EReal) = ((m ((c : Thread nD τ).loc main_arg7)) : S1024x512.Idx → EReal) := by
  have e : @Eq (S1024x512.Idx → EReal) (V m c main_v3) (truncf (F := Ideal) (s := S1024x512) .bf16 (m ((c : Thread nD τ).loc main_arg7)) bitsLt_bf16_f32) := by
    dsimp only [V, hostOps0]; after_results
  rw [e]; rfl

/-- The bias array window 2 stages is argument `main_arg2` reshaped to a row. -/
theorem V_w2 (c : Dev nD) : (V m c main_v4 : S1x1024.Idx → EReal) = shapeCast S1x1024 ((m ((c : Thread nD τ).loc main_arg2)) : S1024.Idx → EReal) shapeCasts_S1024_S1x1024 := by
  dsimp only [V, hostOps0]; after_results; rfl

/-- The bias array window 4 stages is argument `main_arg4` reshaped to a row. -/
theorem V_w4 (c : Dev nD) : (V m c main_v5 : S1x1024.Idx → EReal) = shapeCast S1x1024 ((m ((c : Thread nD τ).loc main_arg4)) : S1024.Idx → EReal) shapeCasts_S1024_S1x1024 := by
  dsimp only [V, hostOps0]; after_results; rfl

/-- The bias array window 6 stages is argument `main_arg6` reshaped to a row. -/
theorem V_w6 (c : Dev nD) : (V m c main_v6 : S1x1024.Idx → EReal) = shapeCast S1x1024 ((m ((c : Thread nD τ).loc main_arg6)) : S1024.Idx → EReal) shapeCasts_S1024_S1x1024 := by
  dsimp only [V, hostOps0]; after_results; rfl

/-- The bias array window 8 stages is argument `main_arg8` reshaped to a row. -/
theorem V_w8 (c : Dev nD) : (V m c main_v7 : S1x512.Idx → EReal) = shapeCast S1x512 ((m ((c : Thread nD τ).loc main_arg8)) : S512.Idx → EReal) shapeCasts_S512_S1x512 := by
  dsimp only [V, hostOps0]; after_results; rfl

/-! ## The blocks -/

/-- The first window's block at point t, row p, is row 1024 t + p of the argument. -/
theorem iblk0_apply (c : Dev nD) (t : Fin cfg0.N) (p : Fin 1024) (k : Fin 512) (r : Fin 65536) (hr : r.val = t.val * 1024 + p.val) :
    (iblk m c 0 t : S1024x512.Idx → EReal) (ix2 p k) = ((m ((c : Thread nD τ).loc main_arg0)) : S65536x512.Idx → EReal) (ix2 r k) := by
  unfold iblk
  rw [View.read_apply]
  show (V m c main_arg0 : S65536x512.Idx → EReal) (((cfg0.win 0).blk t).view.emb (ix2 p k)) = _
  rw [V_main_arg0]
  refine congrArg _ (funext fun a => Fin.ext ?_)
  match a with
  | ⟨0, _⟩ => show win0_0.index t (0 : Fin 2) * 1024 + 1 * p.val = r.val; rw [(idx0 t).1, hr]; omega
  | ⟨1, _⟩ => show win0_0.index t (1 : Fin 2) * 512 + 1 * k.val = k.val; rw [(idx0 t).2]; omega

/-- Window 1's block at every point is the whole of argument `main_arg1`. -/
theorem iblk1_eq (c : Dev nD) (t : Fin cfg0.N) :
    (iblk m c 1 t : S256x1024.Idx → EReal) = ((m ((c : Thread nD τ).loc main_arg1)) : S256x1024.Idx → EReal) := by
  funext i
  unfold iblk
  rw [View.read_apply]
  show (V m c main_v0 : S256x1024.Idx → EReal) (((cfg0.win 1).blk t).view.emb i) = _
  rw [V_w1]
  refine congrArg _ (funext fun a => Fin.ext ?_)
  match a with
  | ⟨0, _⟩ => show win0_1.index t (0 : Fin 2) * 256 + 1 * (i 0).val = (i 0).val; rw [(idx1 t).1]; omega
  | ⟨1, _⟩ => show win0_1.index t (1 : Fin 2) * 1024 + 1 * (i 1).val = (i 1).val; rw [(idx1 t).2]; omega

/-- Window 3's block at every point is the whole of argument `main_arg3`. -/
theorem iblk3_eq (c : Dev nD) (t : Fin cfg0.N) :
    (iblk m c 3 t : S1024x1024.Idx → EReal) = ((m ((c : Thread nD τ).loc main_arg3)) : S1024x1024.Idx → EReal) := by
  funext i
  unfold iblk
  rw [View.read_apply]
  show (V m c main_v1 : S1024x1024.Idx → EReal) (((cfg0.win 3).blk t).view.emb i) = _
  rw [V_w3]
  refine congrArg _ (funext fun a => Fin.ext ?_)
  match a with
  | ⟨0, _⟩ => show win0_3.index t (0 : Fin 2) * 1024 + 1 * (i 0).val = (i 0).val; rw [(idx3 t).1]; omega
  | ⟨1, _⟩ => show win0_3.index t (1 : Fin 2) * 1024 + 1 * (i 1).val = (i 1).val; rw [(idx3 t).2]; omega

/-- Window 5's block at every point is the whole of argument `main_arg5`. -/
theorem iblk5_eq (c : Dev nD) (t : Fin cfg0.N) :
    (iblk m c 5 t : S1024x1024.Idx → EReal) = ((m ((c : Thread nD τ).loc main_arg5)) : S1024x1024.Idx → EReal) := by
  funext i
  unfold iblk
  rw [View.read_apply]
  show (V m c main_v2 : S1024x1024.Idx → EReal) (((cfg0.win 5).blk t).view.emb i) = _
  rw [V_w5]
  refine congrArg _ (funext fun a => Fin.ext ?_)
  match a with
  | ⟨0, _⟩ => show win0_5.index t (0 : Fin 2) * 1024 + 1 * (i 0).val = (i 0).val; rw [(idx5 t).1]; omega
  | ⟨1, _⟩ => show win0_5.index t (1 : Fin 2) * 1024 + 1 * (i 1).val = (i 1).val; rw [(idx5 t).2]; omega

/-- Window 7's block at every point is the whole of argument `main_arg7`. -/
theorem iblk7_eq (c : Dev nD) (t : Fin cfg0.N) :
    (iblk m c 7 t : S1024x512.Idx → EReal) = ((m ((c : Thread nD τ).loc main_arg7)) : S1024x512.Idx → EReal) := by
  funext i
  unfold iblk
  rw [View.read_apply]
  show (V m c main_v3 : S1024x512.Idx → EReal) (((cfg0.win 7).blk t).view.emb i) = _
  rw [V_w7]
  refine congrArg _ (funext fun a => Fin.ext ?_)
  match a with
  | ⟨0, _⟩ => show win0_7.index t (0 : Fin 2) * 1024 + 1 * (i 0).val = (i 0).val; rw [(idx7 t).1]; omega
  | ⟨1, _⟩ => show win0_7.index t (1 : Fin 2) * 512 + 1 * (i 1).val = (i 1).val; rw [(idx7 t).2]; omega

/-- Window 2's block at every point, read as a row, is argument `main_arg2`. -/
theorem iblk2_row (c : Dev nD) (t : Fin cfg0.N) :
    rowVec (iblk m c 2 t : S1x1024.Idx → EReal) = vecOf ((m ((c : Thread nD τ).loc main_arg2)) : S1024.Idx → EReal) := by
  funext j
  show (iblk m c 2 t : S1x1024.Idx → EReal) (ix2 (0 : Fin 1) j) = ((m ((c : Thread nD τ).loc main_arg2)) : S1024.Idx → EReal) (ix1 j)
  unfold iblk
  rw [View.read_apply]
  show (V m c main_v4 : S1x1024.Idx → EReal) (((cfg0.win 2).blk t).view.emb (ix2 (0 : Fin 1) j)) = _
  rw [V_w2]
  have he : ((cfg0.win 2).blk t).view.emb (ix2 (0 : Fin 1) j) = ix2 (0 : Fin 1) j := funext fun a => Fin.ext (by
    match a with
    | ⟨0, _⟩ => show win0_2.index t (0 : Fin 2) * 1 + 1 * 0 = 0; rw [(idx2 t).1]
    | ⟨1, _⟩ => show win0_2.index t (1 : Fin 2) * 1024 + 1 * j.val = j.val; rw [(idx2 t).2]; omega)
  rw [he]
  exact shapeCast_apply _ shapeCasts_S1024_S1x1024 (ix2 (0 : Fin 1) j) (ix1 j) (by
    rw [Shape.rowMajor_val_one, Shape.rowMajor_val_two]
    show j.val = 0 * 1024 + j.val
    omega)

/-- Window 4's block at every point, read as a row, is argument `main_arg4`. -/
theorem iblk4_row (c : Dev nD) (t : Fin cfg0.N) :
    rowVec (iblk m c 4 t : S1x1024.Idx → EReal) = vecOf ((m ((c : Thread nD τ).loc main_arg4)) : S1024.Idx → EReal) := by
  funext j
  show (iblk m c 4 t : S1x1024.Idx → EReal) (ix2 (0 : Fin 1) j) = ((m ((c : Thread nD τ).loc main_arg4)) : S1024.Idx → EReal) (ix1 j)
  unfold iblk
  rw [View.read_apply]
  show (V m c main_v5 : S1x1024.Idx → EReal) (((cfg0.win 4).blk t).view.emb (ix2 (0 : Fin 1) j)) = _
  rw [V_w4]
  have he : ((cfg0.win 4).blk t).view.emb (ix2 (0 : Fin 1) j) = ix2 (0 : Fin 1) j := funext fun a => Fin.ext (by
    match a with
    | ⟨0, _⟩ => show win0_4.index t (0 : Fin 2) * 1 + 1 * 0 = 0; rw [(idx4 t).1]
    | ⟨1, _⟩ => show win0_4.index t (1 : Fin 2) * 1024 + 1 * j.val = j.val; rw [(idx4 t).2]; omega)
  rw [he]
  exact shapeCast_apply _ shapeCasts_S1024_S1x1024 (ix2 (0 : Fin 1) j) (ix1 j) (by
    rw [Shape.rowMajor_val_one, Shape.rowMajor_val_two]
    show j.val = 0 * 1024 + j.val
    omega)

/-- Window 6's block at every point, read as a row, is argument `main_arg6`. -/
theorem iblk6_row (c : Dev nD) (t : Fin cfg0.N) :
    rowVec (iblk m c 6 t : S1x1024.Idx → EReal) = vecOf ((m ((c : Thread nD τ).loc main_arg6)) : S1024.Idx → EReal) := by
  funext j
  show (iblk m c 6 t : S1x1024.Idx → EReal) (ix2 (0 : Fin 1) j) = ((m ((c : Thread nD τ).loc main_arg6)) : S1024.Idx → EReal) (ix1 j)
  unfold iblk
  rw [View.read_apply]
  show (V m c main_v6 : S1x1024.Idx → EReal) (((cfg0.win 6).blk t).view.emb (ix2 (0 : Fin 1) j)) = _
  rw [V_w6]
  have he : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [(idx6 t).1]
    | ⟨1, _⟩ => show win0_6.index t (1 : Fin 2) * 1024 + 1 * j.val = j.val; rw [(idx6 t).2]; omega)
  rw [he]
  exact shapeCast_apply _ shapeCasts_S1024_S1x1024 (ix2 (0 : Fin 1) j) (ix1 j) (by
    rw [Shape.rowMajor_val_one, Shape.rowMajor_val_two]
    show j.val = 0 * 1024 + j.val
    omega)

/-- Window 8's block at every point, read as a row, is argument `main_arg8`. -/
theorem iblk8_row (c : Dev nD) (t : Fin cfg0.N) :
    rowVec (iblk m c 8 t : S1x512.Idx → EReal) = vecOf ((m ((c : Thread nD τ).loc main_arg8)) : S512.Idx → EReal) := by
  funext j
  show (iblk m c 8 t : S1x512.Idx → EReal) (ix2 (0 : Fin 1) j) = ((m ((c : Thread nD τ).loc main_arg8)) : S512.Idx → EReal) (ix1 j)
  unfold iblk
  rw [View.read_apply]
  show (V m c main_v7 : S1x512.Idx → EReal) (((cfg0.win 8).blk t).view.emb (ix2 (0 : Fin 1) j)) = _
  rw [V_w8]
  have he : ((cfg0.win 8).blk t).view.emb (ix2 (0 : Fin 1) j) = ix2 (0 : Fin 1) j := funext fun a => Fin.ext (by
    match a with
    | ⟨0, _⟩ => show win0_8.index t (0 : Fin 2) * 1 + 1 * 0 = 0; rw [(idx8 t).1]
    | ⟨1, _⟩ => show win0_8.index t (1 : Fin 2) * 512 + 1 * j.val = j.val; rw [(idx8 t).2]; omega)
  rw [he]
  exact shapeCast_apply _ shapeCasts_S512_S1x512 (ix2 (0 : Fin 1) j) (ix1 j) (by
    rw [Shape.rowMajor_val_one, Shape.rowMajor_val_two]
    show j.val = 0 * 512 + j.val
    omega)

end Cert.KernelIdeal.Hand

end
-- ==== Proof.KernelArrays.lean ====
/-
  The kernel's two result arrays after the run are the specification's arrays of the arguments.

  At grid point t the body's parameters for row p of its block are the specification's parameters of row 1024 t + p of
  the argument (the blocks are what `KernelInputs` says), so what point t writes back to each result array is block t
  of the specification's array. Every row lies in the block of point `row / 1024`, so the 64 blocks cover both arrays,
  and after the run each array holds the specification's.
-/
import proofs.«151439_j28260884807682_2_alg».proof.Proof.Gen.KernelIdeal.Value
import proofs.«151439_j28260884807682_2_alg».proof.Proof.KernelBlock
import proofs.«151439_j28260884807682_2_alg».proof.Proof.KernelInputs

noncomputable section

namespace Cert.KernelIdeal.Hand

open Cert.KernelIdeal Cert.KernelIdeal.Gen Cert.KernelIdeal.Value Cert.Coupling
open Idealize.ShloMosaic Idealize.ShloMosaic.TcCoe Idealize.SL.Sem Idealize.ShloMosaic.ValueIdx
open Idealize.ShloMosaic.Pipeline (Dat)

/-! ## A block's row against the argument's row -/

/-- The parameters of row p of a block whose row p is row r of the array and whose other blocks are the weight and bias
    arrays are the parameters of row r. -/
theorem blockParams_eq (X : S65536x512.Idx → EReal) (W1 : S256x1024.Idx → EReal) (B1 : S1024.Idx → EReal) (W2 : S1024x1024.Idx → EReal) (B2 : S1024.Idx → EReal) (W3 : S1024x1024.Idx → EReal) (B3 : S1024.Idx → EReal) (W4 : S1024x512.Idx → EReal) (B4 : S512.Idx → EReal) (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) (p : Fin 1024) (r : Fin 65536)
    (h0 : ∀ k : Fin 512, x0 (ix2 p k) = X (ix2 r k)) (h1 : (x1 : S256x1024.Idx → EReal) = W1) (h2 : rowVec x2 = vecOf B1) (h3 : (x3 : S1024x1024.Idx → EReal) = W2) (h4 : rowVec x4 = vecOf B2) (h5 : (x5 : S1024x1024.Idx → EReal) = W3) (h6 : rowVec x6 = vecOf B3) (h7 : (x7 : S1024x512.Idx → EReal) = W4) (h8 : rowVec x8 = vecOf B4) :
    blockParams x0 x1 x2 x3 x4 x5 x6 x7 x8 p = paramsAt X W1 B1 W2 B2 W3 B3 W4 B4 r := by
  subst h1 h3 h5 h7
  unfold blockParams paramsAt
  rw [h2, h4, h6, h8]
  refine congrArg _ (funext fun k => ?_)
  exact h0 (lo k)

/-- So the output block at (p, j) is the transformed array at (r, j). -/
theorem blockOut_eq (X : S65536x512.Idx → EReal) (W1 : S256x1024.Idx → EReal) (B1 : S1024.Idx → EReal) (W2 : S1024x1024.Idx → EReal) (B2 : S1024.Idx → EReal) (W3 : S1024x1024.Idx → EReal) (B3 : S1024.Idx → EReal) (W4 : S1024x512.Idx → EReal) (B4 : S512.Idx → EReal) (x0 : Vec Ideal S1024x512 .f32) (x1 : Vec Ideal S256x1024 .bf16) (x2 : Vec Ideal S1x1024 .f32) (x3 : Vec Ideal S1024x1024 .bf16) (x4 : Vec Ideal S1x1024 .f32) (x5 : Vec Ideal S1024x1024 .bf16) (x6 : Vec Ideal S1x1024 .f32) (x7 : Vec Ideal S1024x512 .bf16) (x8 : Vec Ideal S1x512 .f32) (p : Fin 1024) (j : Fin 512) (r : Fin 65536)
    (h0 : ∀ k : Fin 512, x0 (ix2 p k) = X (ix2 r k)) (h1 : (x1 : S256x1024.Idx → EReal) = W1) (h2 : rowVec x2 = vecOf B1) (h3 : (x3 : S1024x1024.Idx → EReal) = W2) (h4 : rowVec x4 = vecOf B2) (h5 : (x5 : S1024x1024.Idx → EReal) = W3) (h6 : rowVec x6 = vecOf B3) (h7 : (x7 : S1024x512.Idx → EReal) = W4) (h8 : rowVec x8 = vecOf B4) :
    blockOut x0 x1 x2 x3 x4 x5 x6 x7 x8 (ix2 p j) = outArr X W1 B1 W2 B2 W3 B3 W4 B4 (ix2 r j) := by
  show outRow (blockParams x0 x1 x2 x3 x4 x5 x6 x7 x8 p) (fun k => x0 (ix2 p k)) j
    = outRow (paramsAt X W1 B1 W2 B2 W3 B3 W4 B4 r) (rowOf X r) j
  rw [blockParams_eq X W1 B1 W2 B2 W3 B3 W4 B4 x0 x1 x2 x3 x4 x5 x6 x7 x8 p r h0 h1 h2 h3 h4 h5 h6 h7 h8,
    show (fun k => x0 (ix2 p k)) = rowOf X r from funext h0]

variable (m : (ℓ : Loc nD τ sig) → Buf (Elt Ideal) ℓ) (ρ : Dev nD → PrngReg)

/-- The transformed array of the arguments as launched. -/
def outOf (c : Dev nD) : S65536x512.Idx → EReal :=
  outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The log-determinants of the arguments as launched. -/
def ladOf (c : Dev nD) : S65536.Idx → EReal :=
  ladArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem row_lt (t : Fin cfg0.N) (p : Fin 1024) : t.val * 1024 + p.val < 65536 := by
  have hN : cfg0.N = 64 := N_0
  have ht := t.isLt
  have hp := p.isLt
  omega

/-! ## The first result array -/

/-- What point t writes back is block t of the transformed array. -/
theorem flushed9_eq (c : Dev nD) (t : Fin cfg0.N) :
    (dats m 0 c).flushed 9 t = ((cfg0.win 9).blk t).view.read (Elt Ideal) (outOf m c) := by
  rw [Value.flushed9, out9_eq]
  show (fun y : S1024x512.Idx => blockOut (iblk m c 0 t) (iblk m c 1 t) (iblk m c 2 t) (iblk m c 3 t) (iblk m c 4 t) (iblk m c 5 t) (iblk m c 6 t) (iblk m c 7 t) (iblk m c 8 t) y)
    = fun y : S1024x512.Idx => outOf m c (((cfg0.win 9).blk t).view.emb y)
  funext y
  obtain ⟨p, j, rfl⟩ : ∃ (p : Fin 1024) (j : Fin 512), y = ix2 p j := ⟨y 0, y 1, eq_ix2 y⟩
  have he : ((cfg0.win 9).blk t).view.emb (ix2 p j) = ix2 (⟨t.val * 1024 + p.val, row_lt t p⟩ : Fin 65536) j :=
    funext fun a => Fin.ext (by
      match a with
      | ⟨0, _⟩ => show win0_9.index t (0 : Fin 2) * 1024 + 1 * p.val = t.val * 1024 + p.val; rw [(idx9 t).1]; omega
      | ⟨1, _⟩ => show win0_9.index t (1 : Fin 2) * 512 + 1 * j.val = j.val; rw [(idx9 t).2]; omega)
  rw [he]
  exact blockOut_eq _ _ _ _ _ _ _ _ _ (iblk m c 0 t) (iblk m c 1 t) (iblk m c 2 t) (iblk m c 3 t) (iblk m c 4 t) (iblk m c 5 t) (iblk m c 6 t) (iblk m c 7 t) (iblk m c 8 t) p j ⟨t.val * 1024 + p.val, row_lt t p⟩
    (fun k => iblk0_apply m c t p k _ rfl) (iblk1_eq m c t) (iblk2_row m c t) (iblk3_eq m c t) (iblk4_row m c t) (iblk5_eq m c t) (iblk6_row m c t) (iblk7_eq m c t) (iblk8_row m c t)

/-- An index of the array is in point t's block iff each coordinate is in the block's range on its axis. -/
theorem mem_blk9 (t : Fin cfg0.N) (i : S65536x512.Idx) :
    i ∈ ((cfg0.win 9).blk t).view.set ↔ ∀ a : Fin 2, win0_9.index t a * S1024x512.size a ≤ (i a).val
      ∧ (i a).val < win0_9.index t a * S1024x512.size a + S1024x512.size a := by
  show i ∈ ((View.whole main_v8_0).slice (win0_9.rect t)).set ↔ _
  rw [View.set_slice_whole, Rect.mem_set_unit]
  exact Iff.rfl

/-- Row r is in the block of point r / 1024. -/
theorem cover9 (i : S65536x512.Idx) :
    ∃ t : Fin cfg0.N, (cfg0.win 9).flush t = true ∧ i ∈ ((cfg0.win 9).blk t).view.set := by
  have hN : cfg0.N = 64 := N_0
  have h0 : (i 0).val < 65536 := (i 0).isLt
  have h1 : (i 1).val < 512 := (i 1).isLt
  refine ⟨⟨(i 0).val / 1024, by rw [hN]; omega⟩, flush0_9 _, ?_⟩
  rw [mem_blk9]
  intro a
  match a with
  | ⟨0, _⟩ =>
    show win0_9.index ⟨(i 0).val / 1024, _⟩ (0 : Fin 2) * 1024 ≤ (i 0).val
      ∧ (i 0).val < win0_9.index ⟨(i 0).val / 1024, _⟩ (0 : Fin 2) * 1024 + 1024
    rw [(idx9 _).1]
    show (i 0).val / 1024 * 1024 ≤ (i 0).val ∧ (i 0).val < (i 0).val / 1024 * 1024 + 1024
    omega
  | ⟨1, _⟩ =>
    show win0_9.index ⟨(i 0).val / 1024, _⟩ (1 : Fin 2) * 512 ≤ (i 1).val
      ∧ (i 1).val < win0_9.index ⟨(i 0).val / 1024, _⟩ (1 : Fin 2) * 512 + 512
    rw [(idx9 _).2]
    omega

/-- The first result array after the run. -/
theorem final9 (c : Dev nD) : (dats m 0 c).arrAt 9 cfg0.N = outOf m c :=
  (dats m 0 c).arrAt_eq_of_cover 9 (outOf m c) (fun t _ => flushed9_eq m c t) cover9

/-! ## The second result array -/

/-- What point t writes back is block t of the log-determinants. -/
theorem flushed10_eq (c : Dev nD) (t : Fin cfg0.N) :
    (dats m 0 c).flushed 10 t = ((cfg0.win 10).blk t).view.read (Elt Ideal) (ladOf m c) := by
  rw [Value.flushed10]
  show (fun y : S1024.Idx => out0_10 (F := Ideal) (iblk m c 0 t) (iblk m c 1 t) (iblk m c 2 t) (iblk m c 3 t) (iblk m c 4 t) (iblk m c 5 t) (iblk m c 6 t) (iblk m c 7 t) (iblk m c 8 t) y)
    = fun y : S1024.Idx => ladOf m c (((cfg0.win 10).blk t).view.emb y)
  funext y
  obtain ⟨p, rfl⟩ : ∃ p : Fin 1024, y = ix1 p := ⟨y 0, eq_ix1 y⟩
  have he : ((cfg0.win 10).blk t).view.emb (ix1 p) = ix1 (⟨t.val * 1024 + p.val, row_lt t p⟩ : Fin 65536) :=
    funext fun a => Fin.ext (by
      match a with
      | ⟨0, _⟩ => show win0_10.index t (0 : Fin 1) * 1024 + 1 * p.val = t.val * 1024 + p.val; rw [idx10 t]; omega)
  rw [he, out10_apply]
  show logdet (blockParams (iblk m c 0 t) (iblk m c 1 t) (iblk m c 2 t) (iblk m c 3 t) (iblk m c 4 t) (iblk m c 5 t) (iblk m c 6 t) (iblk m c 7 t) (iblk m c 8 t) p) = logdet (paramsAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) ⟨t.val * 1024 + p.val, row_lt t p⟩)
  rw [blockParams_eq _ _ _ _ _ _ _ _ _ (iblk m c 0 t) (iblk m c 1 t) (iblk m c 2 t) (iblk m c 3 t) (iblk m c 4 t) (iblk m c 5 t) (iblk m c 6 t) (iblk m c 7 t) (iblk m c 8 t) p ⟨t.val * 1024 + p.val, row_lt t p⟩
    (fun k => iblk0_apply m c t p k _ rfl) (iblk1_eq m c t) (iblk2_row m c t) (iblk3_eq m c t) (iblk4_row m c t) (iblk5_eq m c t) (iblk6_row m c t) (iblk7_eq m c t) (iblk8_row m c t)]

theorem mem_blk10 (t : Fin cfg0.N) (i : S65536.Idx) :
    i ∈ ((cfg0.win 10).blk t).view.set ↔ ∀ a : Fin 1, win0_10.index t a * S1024.size a ≤ (i a).val
      ∧ (i a).val < win0_10.index t a * S1024.size a + S1024.size a := by
  show i ∈ ((View.whole main_v8_1).slice (win0_10.rect t)).set ↔ _
  rw [View.set_slice_whole, Rect.mem_set_unit]
  exact Iff.rfl

theorem cover10 (i : S65536.Idx) :
    ∃ t : Fin cfg0.N, (cfg0.win 10).flush t = true ∧ i ∈ ((cfg0.win 10).blk t).view.set := by
  have hN : cfg0.N = 64 := N_0
  have h0 : (i 0).val < 65536 := (i 0).isLt
  refine ⟨⟨(i 0).val / 1024, by rw [hN]; omega⟩, flush0_10 _, ?_⟩
  rw [mem_blk10]
  intro a
  match a with
  | ⟨0, _⟩ =>
    show win0_10.index ⟨(i 0).val / 1024, _⟩ (0 : Fin 1) * 1024 ≤ (i 0).val
      ∧ (i 0).val < win0_10.index ⟨(i 0).val / 1024, _⟩ (0 : Fin 1) * 1024 + 1024
    rw [idx10 _]
    show (i 0).val / 1024 * 1024 ≤ (i 0).val ∧ (i 0).val < (i 0).val / 1024 * 1024 + 1024
    omega

/-- The second result array after the run. -/
theorem final10 (c : Dev nD) : (dats m 0 c).arrAt 10 cfg0.N = ladOf m c :=
  (dats m 0 c).arrAt_eq_of_cover 10 (ladOf m c) (fun t _ => flushed10_eq m c t) cover10

/-! ## The run, read -/

/-- Every weakly fair execution of the kernel's program ends with the two result arrays at the specification's arrays
    of the arguments as launched, the arguments unchanged. -/
theorem run : θ_run defs (onTc (τ := τ) (main (F := Ideal))) ⟨m, fun _ => 0, ρ⟩ fun r => ∀ c : Dev nD,
      r.2.mem ((c : Thread nD τ).loc main_v8_0) = outOf m c
      ∧ r.2.mem ((c : Thread nD τ).loc main_v8_1) = ladOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.Hand

end
-- ==== Proof.RefLayers.lean ====
/-
  The reference's network, read at an index.

  The host program computes each hidden layer for all 65536 rows at once: a general product of the previous layer with the
  weight array, plus the bias (broadcast first to a 1 × b row, then down the rows), then the maximum with a zero splat.
  At the exact values the product at (r, j) is the sum over k of the previous layer at (r, k) times the weight at
  (k, j), so each layer at (r, j) is `Coupling.layer` of the previous layer's row r, and the last affine map gives the
  parameters of row r, `Coupling.paramsAt`.
-/
import proofs.«151439_j28260884807682_2_alg».proof.Proof.Gen.ReferenceIdeal.Read
import proofs.«151439_j28260884807682_2_alg».proof.Proof.Spec

noncomputable section

namespace Cert.ReferenceIdeal.Hand

open Cert.ReferenceIdeal Cert.ReferenceIdeal.Read Cert.Coupling
open Idealize.ShloMosaic Idealize.ShloMosaic.ValueIdx
open scoped BigOperators

/-! ## The composed index functions at coordinates -/

theorem l2 (r : Fin 65536) (j : Fin 1024) (k : Fin 256) : idx_main_v0 (lidx_main_v2 (ix2 r j) k) = ix2 r (lo k) := funext fun a => Fin.ext (by match a with | ⟨0, _⟩ => rfl | ⟨1, _⟩ => rfl)
theorem r2 (r : Fin 65536) (j : Fin 1024) (k : Fin 256) : ridx_main_v2 (ix2 r j) k = ix2 k j := funext fun a => Fin.ext (by match a with | ⟨0, _⟩ => rfl | ⟨1, _⟩ => rfl)
theorem b2 (r : Fin 65536) (j : Fin 1024) : idx_main_v3 (idx_main_v4 (ix2 r j)) = ix1 j := funext fun a => Fin.ext (by match a with | ⟨0, _⟩ => rfl)
theorem l7 (r : Fin 65536) (j : Fin 1024) (k : Fin 1024) : lidx_main_v7 (ix2 r j) k = ix2 r k := funext fun a => Fin.ext (by match a with | ⟨0, _⟩ => rfl | ⟨1, _⟩ => rfl)
theorem r7 (r : Fin 65536) (j : Fin 1024) (k : Fin 1024) : ridx_main_v7 (ix2 r j) k = ix2 k j := funext fun a => Fin.ext (by match a with | ⟨0, _⟩ => rfl | ⟨1, _⟩ => rfl)
theorem b7 (r : Fin 65536) (j : Fin 1024) : idx_main_v8 (idx_main_v9 (ix2 r j)) = ix1 j := funext fun a => Fin.ext (by match a with | ⟨0, _⟩ => rfl)
theorem l12 (r : Fin 65536) (j : Fin 1024) (k : Fin 1024) : lidx_main_v12 (ix2 r j) k = ix2 r k := funext fun a => Fin.ext (by match a with | ⟨0, _⟩ => rfl | ⟨1, _⟩ => rfl)
theorem r12 (r : Fin 65536) (j : Fin 1024) (k : Fin 1024) : ridx_main_v12 (ix2 r j) k = ix2 k j := funext fun a => Fin.ext (by match a with | ⟨0, _⟩ => rfl | ⟨1, _⟩ => rfl)
theorem b12 (r : Fin 65536) (j : Fin 1024) : idx_main_v13 (idx_main_v14 (ix2 r j)) = ix1 j := funext fun a => Fin.ext (by match a with | ⟨0, _⟩ => rfl)
theorem l17 (r : Fin 65536) (j : Fin 512) (k : Fin 1024) : lidx_main_v17 (ix2 r j) k = ix2 r k := funext fun a => Fin.ext (by match a with | ⟨0, _⟩ => rfl | ⟨1, _⟩ => rfl)
theorem r17 (r : Fin 65536) (j : Fin 512) (k : Fin 1024) : ridx_main_v17 (ix2 r j) k = ix2 k j := funext fun a => Fin.ext (by match a with | ⟨0, _⟩ => rfl | ⟨1, _⟩ => rfl)
theorem b17 (r : Fin 65536) (j : Fin 512) : idx_main_v18 (idx_main_v19 (ix2 r j)) = ix1 j := funext fun a => Fin.ext (by match a with | ⟨0, _⟩ => rfl)

/-! ## The layers -/

/-- The first hidden layer at (r, j). -/
theorem layer1_apply (X : (⟨S65536x512, .f32⟩ : BufTy).Contents (Elt Ideal)) (W1 : (⟨S256x1024, .f32⟩ : BufTy).Contents (Elt Ideal)) (B1 : (⟨S1024, .f32⟩ : BufTy).Contents (Elt Ideal)) (r : Fin 65536) (j : Fin 1024) :
    val_main_v6 (F := Ideal) X W1 B1 (ix2 r j) = layer W1 (vecOf B1) (fun k => rowOf X r (lo k)) j := by
  rw [val_main_v6_apply, val_main_v5_apply, val_main_v2_apply, val_main_v4_apply, val_main_v3_apply,
    val_main_call0_v0_apply, val_main_call0_cst_apply]
  simp only [val_main_v0_apply, l2, r2, b2]
  rfl

/-- The second hidden layer at (r, j), from the first layer's row r. -/
theorem layer2_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (r : Fin 65536) (j : Fin 1024) :
    val_main_v11 (F := Ideal) X W1 B1 W2 B2 (ix2 r j)
      = layer W2 (vecOf B2) (fun k => val_main_v6 (F := Ideal) X W1 B1 (ix2 r k)) j := by
  rw [val_main_v11_apply, val_main_v10_apply, val_main_v7_apply, val_main_v9_apply, val_main_v8_apply,
    val_main_call1_v0_apply, val_main_call1_cst_apply]
  simp only [l7, r7, b7]
  rfl

/-- The third hidden layer at (r, j), from the second layer's row r. -/
theorem layer3_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (r : Fin 65536) (j : Fin 1024) :
    val_main_v16 (F := Ideal) X W1 B1 W2 B2 W3 B3 (ix2 r j)
      = layer W3 (vecOf B3) (fun k => val_main_v11 (F := Ideal) X W1 B1 W2 B2 (ix2 r k)) j := by
  rw [val_main_v16_apply, val_main_v15_apply, val_main_v12_apply, val_main_v14_apply, val_main_v13_apply,
    val_main_call2_v0_apply, val_main_call2_cst_apply]
  simp only [l12, r12, b12]
  rfl

/-- The last affine map at (r, j), from the third layer's row r. -/
theorem affine4_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) (j : Fin 512) :
    val_main_v20 (F := Ideal) X W1 B1 W2 B2 W3 B3 W4 B4 (ix2 r j)
      = affine W4 (vecOf B4) (fun k => val_main_v16 (F := Ideal) X W1 B1 W2 B2 W3 B3 (ix2 r k)) j := by
  rw [val_main_v20_apply, val_main_v17_apply, val_main_v19_apply, val_main_v18_apply]
  simp only [l17, r17, b17]
  rfl

/-- The parameters of row r are the reference's stage `%20` at row r. -/
theorem params_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) (j : Fin 512) :
    val_main_v20 (F := Ideal) X W1 B1 W2 B2 W3 B3 W4 B4 (ix2 r j) = paramsAt X W1 B1 W2 B2 W3 B3 W4 B4 r j := by
  rw [affine4_apply]
  unfold paramsAt params
  refine congrArg (fun v => affine W4 (vecOf B4) v j) (funext fun k3 => ?_)
  rw [layer3_apply]
  refine congrArg (fun v => layer W3 (vecOf B3) v k3) (funext fun k2 => ?_)
  rw [layer2_apply]
  refine congrArg (fun v => layer W2 (vecOf B2) v k2) (funext fun k1 => ?_)
  exact layer1_apply X W1 B1 r k1

end Cert.ReferenceIdeal.Hand

end
-- ==== Proof.RefOut.lean ====
/-
  The reference's two results are the specification's arrays.

  After the network the host program forms, for each of the last 256 features, `1 / (1 + exp (-(z + 2))) + 0.001` from the
  parameter `z` at column 256 + q — the logistic function written out with a negation, an exponential, a sum and a
  quotient, which at the exact values is the logistic function itself because the f32 word of one denotes 1 —, multiplies
  the feature by it and adds the parameter at column q, joins the untouched first half and the moved second half side
  by side, and sums the logarithms of the scales along each row from a zero start.
-/
import proofs.«151439_j28260884807682_2_alg».proof.Proof.Gen.ReferenceIdeal.Read
import proofs.«151439_j28260884807682_2_alg».proof.Proof.Spec
import proofs.«151439_j28260884807682_2_alg».proof.Proof.RefLayers

noncomputable section

namespace Cert.ReferenceIdeal.Hand

open Cert.ReferenceIdeal Cert.ReferenceIdeal.Gen Cert.ReferenceIdeal.Read Cert.Coupling
open Idealize.ShloMosaic Idealize.ShloMosaic.ValueIdx
open scoped BigOperators

/-- The f32 word of one denotes the real number 1. -/
theorem one_f32 : Ideal.ofBits .f32 0x3F800000#32 = 1 := by
  simp [Ideal.ofBits, Ideal.ieee, -EReal.coe_mul]; norm_num

/-- The quotient of one by one plus the exponential of the negation is the logistic function. -/
theorem logistic_expand (z : EReal) :
    Ideal.div (Ideal.ofBits .f32 0x3F800000#32) (Ideal.ofBits .f32 0x3F800000#32 + Ideal.exp (-z)) = Ideal.logistic z := by
  rw [one_f32]; rfl

theorem e0 (r : Fin 65536) (q : Fin 256) : idx_main_v0 (ix2 r q) = ix2 r (lo q) := funext fun a => Fin.ext (by match a with | ⟨0, _⟩ => rfl | ⟨1, _⟩ => rfl)
theorem e1 (r : Fin 65536) (q : Fin 256) : idx_main_v1 (ix2 r q) = ix2 r (hi q) := funext fun a => Fin.ext (by match a with | ⟨0, _⟩ => rfl | ⟨1, _⟩ => rfl)
theorem e21 (r : Fin 65536) (q : Fin 256) : idx_main_v21 (ix2 r q) = ix2 r (lo q) := funext fun a => Fin.ext (by match a with | ⟨0, _⟩ => rfl | ⟨1, _⟩ => rfl)
theorem e22 (r : Fin 65536) (q : Fin 256) : idx_main_v22 (ix2 r q) = ix2 r (hi q) := funext fun a => Fin.ext (by match a with | ⟨0, _⟩ => rfl | ⟨1, _⟩ => rfl)
theorem e37 (r : Fin 65536) (k : Fin 256) : idx_main_v37 (ix1 r) k = ix2 r k := funext fun a => Fin.ext (by match a with | ⟨0, _⟩ => rfl | ⟨1, _⟩ => rfl)

/-- The scale at (r, q), from the parameter at (r, 256 + q). -/
theorem scale_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) (q : Fin 256) :
    val_main_v32 (F := Ideal) X W1 B1 W2 B2 W3 B3 W4 B4 (ix2 r q) = scaleOf (paramsAt X W1 B1 W2 B2 W3 B3 W4 B4 r (hi q)) := by
  rw [val_main_v32_apply, val_main_v30_apply, val_main_v29_apply, val_main_cst_1_apply, val_main_v28_apply,
    val_main_v27_apply, val_main_cst_0_apply, val_main_v26_apply, val_main_v25_apply, val_main_v24_apply,
    val_main_v22_apply, val_main_v23_apply, val_main_cst_apply, val_main_v31_apply, val_main_cst_2_apply, e22,
    params_apply]
  exact congrArg (fun t => t + Ideal.ofBits .f32 0x3A83126F#32) (logistic_expand _)

/-- The moved feature at (r, q). -/
theorem moved_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) (q : Fin 256) :
    val_main_v35 (F := Ideal) X W1 B1 W2 B2 W3 B3 W4 B4 (ix2 r q) = moved (paramsAt X W1 B1 W2 B2 W3 B3 W4 B4 r) (rowOf X r) q := by
  rw [val_main_v35_apply, val_main_v34_apply, val_main_v1_apply, val_main_v21_apply, e1, e21, scale_apply,
    params_apply]
  rfl

/-- The joined result at (r, j): the first half from the input, the second half moved. -/
theorem out_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) (j : Fin 512) :
    val_main_v36 (F := Ideal) X W1 B1 W2 B2 W3 B3 W4 B4 (ix2 r j) = outRow (paramsAt X W1 B1 W2 B2 W3 B3 W4 B4 r) (rowOf X r) j := by
  unfold val_main_v36
  rcases lo_or_hi j with ⟨q, rfl⟩ | ⟨q, rfl⟩
  · rw [outRow_lo]
    refine (concatenate_pair_apply_left (t := S65536x512) (s₁ := S65536x256) (s₂ := S65536x256) (1 : Fin 2) _ _ concatenates_S65536x256_S65536x256_S65536x512_d1
      (ix2 r (lo q)) rfl (ix2 r q) (fun b => by match b with | ⟨0, _⟩ => rfl | ⟨1, _⟩ => rfl)).trans ?_
    rw [val_main_v0_apply, e0]
    rfl
  · rw [outRow_hi]
    refine (concatenate_pair_apply_right (t := S65536x512) (s₁ := S65536x256) (s₂ := S65536x256) (1 : Fin 2) _ _ concatenates_S65536x256_S65536x256_S65536x512_d1
      (ix2 r (hi q)) rfl rfl (ix2 r q) (fun b hb => by
        match b, hb with
        | ⟨0, _⟩, _ => rfl
        | ⟨1, _⟩, hb => exact absurd rfl hb) (by show q.val + 256 = 256 + q.val; omega)).trans ?_
    exact moved_apply X W1 B1 W2 B2 W3 B3 W4 B4 r q

/-- The row sums at r. -/
theorem lad_apply (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) (r : Fin 65536) :
    val_main_v37 (F := Ideal) X W1 B1 W2 B2 W3 B3 W4 B4 (ix1 r) = logdet (paramsAt X W1 B1 W2 B2 W3 B3 W4 B4 r) := by
  rw [val_main_v37_apply, val_main_cst_3_apply]
  simp only [val_main_v33_apply, e37, scale_apply]
  show Ideal.ofBits .f32 0x00000000#32 + _ = _
  rw [Ideal.ofBits_zero_f32, zero_add]
  rfl

/-- The reference's first result is the transformed array. -/
theorem ref_out (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) : val_main_v36 (F := Ideal) X W1 B1 W2 B2 W3 B3 W4 B4 = outArr X W1 B1 W2 B2 W3 B3 W4 B4 := by
  funext i
  obtain ⟨r, j, rfl⟩ : ∃ (r : Fin 65536) (j : Fin 512), i = ix2 r j := ⟨i 0, i 1, eq_ix2 i⟩
  exact out_apply X W1 B1 W2 B2 W3 B3 W4 B4 r j

/-- The reference's second result is the array of log-determinants. -/
theorem ref_lad (X : (⟨S65536x512, .f32⟩ : BufTy).Contents (Elt Ideal)) (W1 : (⟨S256x1024, .f32⟩ : BufTy).Contents (Elt Ideal)) (B1 : (⟨S1024, .f32⟩ : BufTy).Contents (Elt Ideal)) (W2 : (⟨S1024x1024, .f32⟩ : BufTy).Contents (Elt Ideal)) (B2 : (⟨S1024, .f32⟩ : BufTy).Contents (Elt Ideal)) (W3 : (⟨S1024x1024, .f32⟩ : BufTy).Contents (Elt Ideal)) (B3 : (⟨S1024, .f32⟩ : BufTy).Contents (Elt Ideal)) (W4 : (⟨S1024x512, .f32⟩ : BufTy).Contents (Elt Ideal)) (B4 : (⟨S512, .f32⟩ : BufTy).Contents (Elt Ideal)) : val_main_v37 (F := Ideal) X W1 B1 W2 B2 W3 B3 W4 B4 = ladArr X W1 B1 W2 B2 W3 B3 W4 B4 := by
  funext i
  obtain ⟨r, rfl⟩ : ∃ r : Fin 65536, i = ix1 r := ⟨i 0, eq_ix1 i⟩
  exact lad_apply X W1 B1 W2 B2 W3 B3 W4 B4 r

end Cert.ReferenceIdeal.Hand

end
-- ==== Proof.lean ====
/-
  A coupling transform of 65536 rows of 512 features: a kernel over 64 blocks of 1024 rows against a whole-array
  reference, equal at the exact values.

  Both programs keep each row's first 256 features, feed them through three layers `max (v · W + b) 0` and one affine
  layer to get 512 parameters, and for each of the last 256 features form `scale = logistic (z + 2) + 0.001` from the
  parameter `z` at column 256 + q, replace the feature by `feature * scale + shift` with the shift the parameter at
  column q, and return beside the transformed rows the sum over q of `log scale`.

  They differ in spelling only. The kernel narrows each product's operands to bf16, which at the exact values is the
  identity; it computes a block of rows per grid point, and a row's result depends on that row alone, so block t of its
  result is block t of the whole-array function; it uses the logistic function as one operation where the reference
  writes `1 / (1 + exp (-x))`, the same function since the word of one denotes 1; its products accumulate from a zero
  splat and its sums start from the neutral element where the reference's sum starts from an explicit zero. Every sum
  runs over the same index in the same order and every `+` and `*` has its operands in the same order, so no law
  that needs finiteness is used and the precondition is never opened.

  `Proof/Spec.lean` states the function; `Proof/KernelPayload.lean`, `KernelBlock.lean`, `KernelInputs.lean` and
  `KernelArrays.lean` show the kernel's run ends at it; `Proof/RefLayers.lean` and `RefOut.lean` show the reference's
  results are it.
-/
import proofs.«151439_j28260884807682_2_alg».proof.Defs
import proofs.«151439_j28260884807682_2_alg».proof.Proof.Gen.Kernel
import proofs.«151439_j28260884807682_2_alg».proof.Proof.Gen.Kernel.Skeleton
import proofs.«151439_j28260884807682_2_alg».proof.Proof.Gen.Kernel.Launch
import proofs.«151439_j28260884807682_2_alg».proof.Proof.Gen.Kernel.Points
import proofs.«151439_j28260884807682_2_alg».proof.Proof.Gen.Kernel.Frame
import proofs.«151439_j28260884807682_2_alg».proof.Proof.Gen.KernelIdeal
import proofs.«151439_j28260884807682_2_alg».proof.Proof.Gen.KernelIdeal.Skeleton
import proofs.«151439_j28260884807682_2_alg».proof.Proof.Gen.KernelIdeal.Launch
import proofs.«151439_j28260884807682_2_alg».proof.Proof.Gen.KernelIdeal.Points
import proofs.«151439_j28260884807682_2_alg».proof.Proof.Gen.KernelIdeal.Frame
import proofs.«151439_j28260884807682_2_alg».proof.Proof.Gen.ReferenceIdeal
import proofs.«151439_j28260884807682_2_alg».proof.Proof.Gen.KernelIdeal.Value
import proofs.«151439_j28260884807682_2_alg».proof.Proof.Gen.ReferenceIdeal.Run
import proofs.«151439_j28260884807682_2_alg».proof.Proof.Gen.ReferenceIdeal.Read
import proofs.«151439_j28260884807682_2_alg».proof.Proof.Gen.Pre_finite_inputs
import proofs.«151439_j28260884807682_2_alg».proof.Proof.KernelArrays
import proofs.«151439_j28260884807682_2_alg».proof.Proof.RefOut
import Idealize.ShloMosaic.Adequacy
import Idealize.ShloMosaic.Init

noncomputable section

namespace Cert.Proof

open Idealize.ShloMosaic Idealize.ShloMosaic.TcCoe Idealize.SL.Sem

/-- The kernel's program runs and leaves its arguments as they were. -/
theorem frame_kernel : Cert.frame_Kernel := fun m ρ _ => Cert.Kernel.Gen.frame m ρ

/-- So does the same program read at the exact values. -/
theorem frame_kernelIdeal : Cert.frame_KernelIdeal := fun m ρ _ => Cert.KernelIdeal.Gen.frame m ρ

/-- The reference's run with its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs, from memories agreeing on the arguments, end with the specification's two arrays of those
    arguments. -/
theorem algebraic : Cert.algebraic_KernelIdeal_ReferenceIdeal := by
  intro m ρ m' ρ' _ hagree
  refine ⟨fun c => Cert.KernelIdeal.Hand.outOf m c, fun c => Cert.KernelIdeal.Hand.ladOf m c,
    Cert.KernelIdeal.Hand.run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  refine ⟨(h c).1.trans ?_, (h c).2.1.trans ?_, (h c).2.2⟩
  · rw [Cert.ReferenceIdeal.Read.val_main_v36_eq, Cert.ReferenceIdeal.Hand.ref_out, a0, a1, a2, a3, a4, a5, a6, a7, a8]
    rfl
  · rw [Cert.ReferenceIdeal.Read.val_main_v37_eq, Cert.ReferenceIdeal.Hand.ref_lad, a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
